-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S1x16x2048x2048 : Shape := ⟨4, ![1, 16, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_

variable [Facts]

def fn_part1 {F : FTy → Type} [FloatOps F] (main_v13 : IVec S_ 1) (main_v16 : IVec S1x16x2048x2048 1) : IVec S_ 1 :=
  let main_c_5 : IVec S_ 1 := constantI S_ 1 1#1
  let main_v17 : IVec S_ 1 := (fun x v => Host.reduce IntOp.andi x v reducesTo_S1x16x2048x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : IVec S4x1x2048x2048 1) (main_arg4 : FVec F S1x16x2048x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S1x16x2048x2048 .f32 := Host.absf main_arg4
  let main_cst_4 : FVec F S_ .f32 := constant S_ .f32 0x7F800000#32
  let main_v15 : FVec F S1x16x2048x2048 .f32 := broadcastInDim S1x16x2048x2048 ![] bcast_S_S1x16x2048x2048 main_cst_4
  let main_v16 : IVec S1x16x2048x2048 1 := cmpf .olt main_v14 main_v15
  fn_part1 (F := F) main_v13 main_v16
-- ==== Kernel.lean ====
abbrev S4x16x2048x64 : Shape := ⟨4, ![4, 16, 2048, 64]⟩
abbrev S4x1x2048x2048 : Shape := ⟨4, ![4, 1, 2048, 2048]⟩
abbrev S1x16x2048x2048 : Shape := ⟨4, ![1, 16, 2048, 2048]⟩
abbrev S1x1x1024x64 : Shape := ⟨4, ![1, 1, 1024, 64]⟩
abbrev S1x1x2048x64 : Shape := ⟨4, ![1, 1, 2048, 64]⟩
abbrev S1x1x1024x2048 : Shape := ⟨4, ![1, 1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S1x16x2048x2048, .f32⟩
  | .hbm, ⟨5, _⟩ => ⟨S1x16x2048x2048, .bf16⟩
  | .hbm, ⟨6, _⟩ => ⟨S4x1x2048x2048, .i32⟩
  | .hbm, ⟨7, _⟩ => ⟨S4x16x2048x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x2048, .bf16⟩
  | .local _ .vmem, ⟨7, _⟩ => ⟨S1x1x1024x2048, .bf16⟩
  | .local _ .vmem, ⟨8, _⟩ => ⟨S1x1x1024x2048, .i32⟩
  | .local _ .vmem, ⟨9, _⟩ => ⟨S1x1x1024x2048, .i32⟩
  | .local _ .vmem, ⟨10, _⟩ => ⟨S1x1x1024x64, .f32⟩
  | .local _ .vmem, ⟨11, _⟩ => ⟨S1x1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, arg0.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  natLt_1_32 : 1 < 32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x2048x64.size a
  hwx0_0 : ∀ i : grid0.Coords, EltTy.bits .f32 = 32 ∨ (Rect.block (s := S4x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x2048.size a ≤ S1x16x2048x2048.size a
  hwx0_3 : ∀ i : grid0.Coords, EltTy.bits .bf16 = 32 ∨ (Rect.block (s := S1x16x2048x2048) S1x1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x2048.size a ≤ S4x1x2048x2048.size a
  hwx0_4 : ∀ i : grid0.Coords, EltTy.bits .i32 = 32 ∨ (Rect.block (s := S4x1x2048x2048) S1x1x1024x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x64.size a ≤ S4x16x2048x64.size a
  hwx0_5 : ∀ i : grid0.Coords, EltTy.bits .f32 = 32 ∨ (Rect.block (s := S4x16x2048x64) S1x1x1024x64.size (cc0_transform_5 i) (hinb0_5 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S1x16x2048x2048 : Shape := ⟨4, ![1, 16, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S1x16x2048x2048, .f32⟩
  | .hbm, ⟨5, _⟩ => ⟨S4x16x2048x2048, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S_, .f32⟩
  | .hbm, ⟨12, _⟩ => ⟨S4x16x2048x2048, .i1⟩
  | .hbm, ⟨13, _⟩ => ⟨S4x16x2048x2048, .f32⟩
  | .hbm, ⟨14, _⟩ => ⟨S4x16x2048x2048, .f32⟩
  | .hbm, ⟨15, _⟩ => ⟨S_, .f32⟩
  | .hbm, ⟨16, _⟩ => ⟨S4x16x2048, .f32⟩
  | .hbm, ⟨17, _⟩ => ⟨S_, .f32⟩
  | .hbm, ⟨18, _⟩ => ⟨S4x16x2048, .f32⟩
  | .hbm, ⟨19, _⟩ => ⟨S4x16x2048, .f32⟩
  | .hbm, ⟨20, _⟩ => ⟨S4x16x2048x1, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S1x16x2048x2048_S4x16x2048x2048_0_1_2_3 : S1x16x2048x2048.BroadcastsInDim S4x16x2048x2048 (![0, 1, 2, 3] : Fin 4 → Fin S4x16x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibSoftmaxRow.lean ====
/-
  One row of masked softmax attention on the extended reals, in the two arrangements a fused kernel and a plain
  reference compute it, and the law that joins them.

  A row has scores `s j` (`j` over the `N` keys) and values `v j`. With `m` the row's maximum and
  `p j = exp (s j - m)`:
    * normalise last:   `(∑ j, p j * v j) / (∑ j, p j)`            (`outK`)
    * normalise first:  `∑ j, (p j / (0 + ∑ j', p j')) * v j`       (`outR`)
  and a score is `(∑ d, (q d * c) * k j d) + b j` (scale folded into the query, `scoreK`) or
  `(∑ d, q d * k j d) * c + b j` (scale applied to the product, `scoreR`), replaced by a fill value where the
  mask is off.

  On the extended reals neither pair is equal in general: moving a factor across a sum and dividing a sum term by
  term both fail at the infinities. They are equal when every input is a real number: then every score is real,
  the maximum of a non-empty row of reals is real, every `p j` is a positive real, so the normaliser is a
  positive real, and both sides are the same real expression.
-/
import Idealize.ShloMosaic.PureOps.Ideal

noncomputable section

namespace Cert.SoftmaxRow

open Idealize.ShloMosaic

variable {N D : ℕ}

/-- The inclusion of the reals commutes with finite sums. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals, folded from the bottom element, is a real when there is at least one. -/
theorem fold_max_coe {ι : Type*} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by rw [Finset.fold_singleton]; exact max_bot_right _⟩
  | cons a s ha hs ih =>
    obtain ⟨M, hM⟩ := ih
    refine ⟨max (f a) M, ?_⟩
    rw [Finset.fold_cons, hM]
    exact (EReal.coe_strictMono.monotone.map_max).symm

/-- A row's maximum: the fold of `max` from the bottom element over the row. -/
def rowMax (s : Fin N → EReal) : EReal := (Finset.univ : Finset (Fin N)).fold max ⊥ s

theorem rowMax_real (hN : 0 < N) (r : Fin N → ℝ) : ∃ M : ℝ, rowMax (fun j => (r j : EReal)) = (M : EReal) :=
  fold_max_coe Finset.univ ⟨⟨0, hN⟩, Finset.mem_univ _⟩ r

/-- Normalise last: the weighted sum of the values divided by the sum of the weights. -/
def outK (s v : Fin N → EReal) : EReal :=
  Ideal.div (∑ j, Ideal.exp (s j - rowMax s) * v j) (∑ j, Ideal.exp (s j - rowMax s))

/-- Normalise first: each weight divided by the sum of the weights (a sum started from `0`, the maximum clamped
    below by the bottom element, as a library softmax spells them), then the weighted sum of the values. -/
def outR (s v : Fin N → EReal) : EReal :=
  ∑ j, Ideal.div (Ideal.exp (s j - max ⊥ (rowMax s))) (0 + ∑ j', Ideal.exp (s j' - max ⊥ (rowMax s))) * v j

/-- The two normalisations agree on a non-empty row of real scores and real values. -/
theorem outR_eq_outK (hN : 0 < N) (s v : Fin N → EReal) (hs : ∀ j, ∃ r : ℝ, s j = r) (hv : ∀ j, ∃ r : ℝ, v j = r) :
    outR s v = outK s v := by
  choose rs hrs using hs
  choose rv hrv using hv
  obtain rfl : s = fun j => (rs j : EReal) := funext hrs
  obtain rfl : v = fun j => (rv j : EReal) := funext hrv
  obtain ⟨M, hM⟩ := rowMax_real hN rs
  unfold outR outK
  rw [hM, max_bot_left]
  have hexp : ∀ j, Ideal.exp ((rs j : EReal) - (M : EReal)) = ((Real.exp (rs j - M) : ℝ) : EReal) := fun j => by
    rw [← EReal.coe_sub, Ideal.exp_coe]
  simp only [hexp]
  rw [zero_add, coe_sum]
  have hL : (∑ j, Real.exp (rs j - M)) ≠ 0 :=
    (Finset.sum_pos (fun j _ => Real.exp_pos _) ⟨⟨0, hN⟩, Finset.mem_univ _⟩).ne'
  simp only [Ideal.div_coe hL, ← EReal.coe_mul]
  rw [coe_sum, coe_sum, ← EReal.coe_mul]
  congr 1
  rw [Finset.sum_mul]
  exact Finset.sum_congr rfl fun j _ => by ring

/-- A score with the scale folded into the query. -/
def scoreK (c fill : EReal) (q : Fin D → EReal) (k : Fin N → Fin D → EReal) (b : Fin N → EReal) (msk : Fin N → BitVec 1)
    (j : Fin N) : EReal :=
  Scalar.select (msk j) ((∑ d, (q d * c) * k j d) + b j) fill

/-- A score with the scale applied to the finished product. -/
def scoreR (c fill : EReal) (q : Fin D → EReal) (k : Fin N → Fin D → EReal) (b : Fin N → EReal) (msk : Fin N → BitVec 1)
    (j : Fin N) : EReal :=
  Scalar.select (msk j) ((∑ d, q d * k j d) * c + b j) fill

/-- For a real query, real keys and a real scale the factor leaves the sum. -/
theorem scoreK_eq_scoreR (c fill : EReal) (q : Fin D → EReal) (k : Fin N → Fin D → EReal) (b : Fin N → EReal)
    (msk : Fin N → BitVec 1) (hc : ∃ r : ℝ, c = r) (hq : ∀ d, ∃ r : ℝ, q d = r) (hk : ∀ j d, ∃ r : ℝ, k j d = r) :
    scoreK c fill q k b msk = scoreR c fill q k b msk := by
  obtain ⟨rc, rfl⟩ := hc
  choose rq hrq using hq
  choose rk hrk using hk
  funext j
  unfold scoreK scoreR
  congr 2
  simp only [hrq, hrk, ← EReal.coe_mul]
  rw [coe_sum, coe_sum, ← EReal.coe_mul]
  congr 1
  rw [Finset.sum_mul]
  exact Finset.sum_congr rfl fun d _ => by ring

/-- With every input real, every score is real. -/
theorem scoreR_real (c fill : EReal) (q : Fin D → EReal) (k : Fin N → Fin D → EReal) (b : Fin N → EReal)
    (msk : Fin N → BitVec 1) (hc : ∃ r : ℝ, c = r) (hf : ∃ r : ℝ, fill = r) (hq : ∀ d, ∃ r : ℝ, q d = r)
    (hk : ∀ j d, ∃ r : ℝ, k j d = r) (hb : ∀ j, ∃ r : ℝ, b j = r) (j : Fin N) :
    ∃ r : ℝ, scoreR c fill q k b msk j = r := by
  obtain ⟨rc, rfl⟩ := hc
  obtain ⟨rf, rfl⟩ := hf
  choose rq hrq using hq
  choose rk hrk using hk
  obtain ⟨rb, hrb⟩ := hb j
  unfold scoreR Scalar.select
  split
  · refine ⟨(∑ d, rq d * rk j d) * rc + rb, ?_⟩
    simp only [hrq, hrk, hrb, ← EReal.coe_mul]
    rw [coe_sum, ← EReal.coe_mul, ← EReal.coe_add]
  · exact ⟨rf, rfl⟩

/-- One output entry, normalise-last over scale-folded scores. -/
def attnK (c fill : EReal) (q : Fin D → EReal) (k : Fin N → Fin D → EReal) (b : Fin N → EReal) (msk : Fin N → BitVec 1)
    (v : Fin N → EReal) : EReal :=
  outK (scoreK c fill q k b msk) v

/-- One output entry, normalise-first over scores scaled after the product. -/
def attnR (c fill : EReal) (q : Fin D → EReal) (k : Fin N → Fin D → EReal) (b : Fin N → EReal) (msk : Fin N → BitVec 1)
    (v : Fin N → EReal) : EReal :=
  outR (scoreR c fill q k b msk) v

/-- THE LAW: on real inputs (a real scale and fill value, a non-empty row) the two arrangements are one number. -/
theorem attnR_eq_attnK (hN : 0 < N) (c fill : EReal) (q : Fin D → EReal) (k : Fin N → Fin D → EReal) (b : Fin N → EReal)
    (msk : Fin N → BitVec 1) (v : Fin N → EReal) (hc : ∃ r : ℝ, c = r) (hf : ∃ r : ℝ, fill = r)
    (hq : ∀ d, ∃ r : ℝ, q d = r) (hk : ∀ j d, ∃ r : ℝ, k j d = r) (hb : ∀ j, ∃ r : ℝ, b j = r)
    (hv : ∀ j, ∃ r : ℝ, v j = r) :
    attnR c fill q k b msk v = attnK c fill q k b msk v := by
  unfold attnR attnK
  rw [scoreK_eq_scoreR c fill q k b msk hc hq hk]
  exact outR_eq_outK hN _ v (scoreR_real c fill q k b msk hc hf hq hk hb) hv

end Cert.SoftmaxRow

end
-- ==== Proof.Consts.lean ====
/-
  The float literals the two programs spell, as the extended reals they denote: the mask fill and the scale are
  finite reals (all that the algebra below uses of them), the maximum's start value is the bottom element.
-/
import Idealize.ShloMosaic.PureOps.Ideal

noncomputable section

namespace Cert.Consts

open Idealize.ShloMosaic

/-- The scale `2⁻³` and the mask fill, as the extended reals their patterns denote. -/
abbrev cS : EReal := Ideal.ofBits .f32 0x3E000000#32
abbrev fillS : EReal := Ideal.ofBits .f32 0xFF7FFFFF#32

/-- The pattern of `-inf`, the value both row maxima start from, is the bottom extended real. -/
theorem ofBits_neg_inf : Ideal.ofBits .f32 0xFF800000#32 = ⊥ := by
  simp [Ideal.ofBits, Ideal.ieee]

/-- The scale `2⁻³` is a real number. -/
theorem ofBits_scale_real : ∃ c : ℝ, cS = (c : EReal) := by
  show ∃ c : ℝ, Ideal.ofBits .f32 0x3E000000#32 = (c : EReal)
  simp [Ideal.ofBits, Ideal.ieee, -EReal.coe_mul]
  first | done | exact ⟨_, rfl⟩

/-- The mask fill, the most negative finite f32, is a real number. -/
theorem ofBits_fill_real : ∃ c : ℝ, fillS = (c : EReal) := by
  show ∃ c : ℝ, Ideal.ofBits .f32 0xFF7FFFFF#32 = (c : EReal)
  simp [Ideal.ofBits, Ideal.ieee, -EReal.coe_mul]
  first | done | exact ⟨_, rfl⟩

end Cert.Consts

end
-- ==== Proof.KernelRow.lean ====
/-
  One entry of the block a grid point writes, as a row of masked softmax attention.

  The body loads a [1024, 64] block of queries, all 2048 keys and values of one (batch, head), a [1024, 2048] block
  of the bias and of the mask. Entry (r, d) of what it stores depends on query row r, every key row, bias row r,
  mask row r and column d of the values: it is `SoftmaxRow.attnK` of those — the scores with the scale folded into
  the query, the row maximum subtracted, the weighted sum of the values divided by the sum of the weights.
  Each vector operation is read at an index: the shape casts drop or add unit axes, the two matrix products are
  sums over the one contracted axis, the two lane reductions a fold of `max` and a sum over the row.
-/
import proofs.«143891_j11519102288114_2_alg».proof.Proof.Gen.KernelIdeal.Value
import proofs.«143891_j11519102288114_2_alg».proof.Proof.LibSoftmaxRow
import proofs.«143891_j11519102288114_2_alg».proof.Proof.Consts
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.SoftmaxRow
open Cert.Consts (cS fillS)

/-! ## Layout operations at an index -/

/-- Dropping two leading unit axes: entry (a, b) of the cast is entry (0, 0, a, b). -/
theorem cast42 {A B : Nat} {α : Type} (x : (⟨4, ![1, 1, A, B]⟩ : Shape).Idx → α)
    (h : Shape.ShapeCasts ⟨4, ![1, 1, A, B]⟩ ⟨2, ![A, B]⟩) (a : Fin A) (b : Fin B) :
    shapeCast ⟨2, ![A, B]⟩ x h (ix2 a b) = x (ix4 (0 : Fin 1) (0 : Fin 1) a b) :=
  shapeCast_apply x h (ix2 a b) (ix4 (0 : Fin 1) (0 : Fin 1) a b) (by
    rw [Shape.rowMajor_val_four, Shape.rowMajor_val_two]
    show ((0 * 1 + 0) * A + a.val) * B + b.val = a.val * B + b.val
    simp)

/-- A vector of row results turned into a column and broadcast along the rows: entry (a, b) is result a. -/
theorem col_bcast {A B : Nat} {α : Type} (hB : B ≠ 1) (x : (⟨1, ![A]⟩ : Shape).Idx → α)
    (h1 : Shape.ShapeCasts ⟨1, ![A]⟩ ⟨2, ![A, 1]⟩) (h2 : Shape.Broadcasts ⟨2, ![A, 1]⟩ ⟨2, ![A, B]⟩) (hA : A ≠ 1)
    (a : Fin A) (b : Fin B) :
    broadcastTo ⟨2, ![A, B]⟩ (shapeCast ⟨2, ![A, 1]⟩ x h1) h2 (ix2 a b) = x (ix1 a) := by
  refine (broadcastTo_apply _ h2 (ix2 a b) (ix2 a (0 : Fin 1)) (fun c => match c with
    | ⟨0, _⟩ => by show a.val = if A = 1 then 0 else a.val; rw [if_neg hA]
    | ⟨1, _⟩ => by show 0 = if (1 : Nat) = 1 then 0 else b.val; rw [if_pos rfl])).trans ?_
  exact shapeCast_apply x h1 (ix2 a (0 : Fin 1)) (ix1 a) (by
    rw [Shape.rowMajor_val_one, Shape.rowMajor_val_two]; show a.val = a.val * 1 + 0; omega)

/-! ## The two matrix products at an index -/

theorem lhs1_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem rhs1_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

/-- Queries times keys, contracted over the 64 features: entry (r, j) is the dot product of query row r and key row j. -/
theorem mm1_apply (lhs : FVec Ideal S1024x64 .bf16) (rhs : FVec Ideal S2048x64 .bf16) (r : Fin 1024) (j : Fin 2048) :
    matmul dot_S1024x64_S2048x64_S1024x2048_1_1_0_0_n_n none lhs rhs (constant S1024x2048 .f32 0x00000000#32) (ix2 r j)
      = ∑ d : Fin 64, lhs (ix2 r d) * rhs (ix2 j d) := by
  refine (Ideal.matmul_constant_zero_apply dot_S1024x64_S2048x64_S1024x2048_1_1_0_0_n_n none lhs rhs (ix2 r j)).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r j) ((contrEquiv1 dot_S1024x64_S2048x64_S1024x2048_1_1_0_0_n_n 64 rfl rfl).symm k) = ix2 r k :=
    funext fun a => Fin.ext (by
      match a with
      | ⟨0, _⟩ => exact lhs1_0 _ _
      | ⟨1, _⟩ => exact (dot_S1024x64_S2048x64_S1024x2048_1_1_0_0_n_n.lhsIdx_val_of_single rfl _ _).trans hk)
  have er : dot_S1024x64_S2048x64_S1024x2048_1_1_0_0_n_n.rhsIdx (ix2 r j) ((contrEquiv1 dot_S1024x64_S2048x64_S1024x2048_1_1_0_0_n_n 64 rfl rfl).symm k) = ix2 j k :=
    funext fun a => Fin.ext (by
      match a with
      | ⟨0, _⟩ => exact rhs1_0 _ _
      | ⟨1, _⟩ => exact (dot_S1024x64_S2048x64_S1024x2048_1_1_0_0_n_n.rhsIdx_val_of_single rfl _ _).trans hk)
  rw [el, er]

theorem lhs2_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem rhs2_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- Weights times values, contracted over the 2048 keys: entry (r, d) is the weighted sum of column d of the values. -/
theorem mm2_apply (lhs : FVec Ideal S1024x2048 .bf16) (rhs : FVec Ideal S2048x64 .bf16) (r : Fin 1024) (d : Fin 64) :
    matmul dot_S1024x2048_S2048x64_S1024x64_1_0_0_1_n_n none lhs rhs (constant S1024x64 .f32 0x00000000#32) (ix2 r d)
      = ∑ j : Fin 2048, lhs (ix2 r j) * rhs (ix2 j d) := by
  refine (Ideal.matmul_constant_zero_apply dot_S1024x2048_S2048x64_S1024x64_1_0_0_1_n_n none lhs rhs (ix2 r d)).trans ?_
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k :=
    funext fun a => Fin.ext (by
      match a with
      | ⟨0, _⟩ => exact lhs2_0 _ _
      | ⟨1, _⟩ => exact (dot_S1024x2048_S2048x64_S1024x64_1_0_0_1_n_n.lhsIdx_val_of_single rfl _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d :=
    funext fun a => Fin.ext (by
      match a with
      | ⟨0, _⟩ => exact (dot_S1024x2048_S2048x64_S1024x64_1_0_0_1_n_n.rhsIdx_val_of_single rfl _ _).trans hk
      | ⟨1, _⟩ => exact rhs2_1 _ _)
  rw [el, er]

/-! ## The two lane reductions at an index -/

/-- The row maximum: the fold of `max` from the bottom element over row r. -/
theorem rowmax_apply (src : FVec Ideal S1024x2048 .f32) (r : Fin 1024) :
    multiReduction .maximumf [1] S1024 src 0xFF800000#32 reduces_S1024x2048_S1024 (.inl rfl) rfl (ix1 r)
      = rowMax (fun j : Fin 2048 => src (ix2 r j)) := by
  refine (Ideal.multiReduction_maximumf_single src 0xFF800000#32 reduces_S1024x2048_S1024 (.inl rfl) rfl (ix1 r)).trans ?_
  show (Finset.univ : Finset (Fin 2048)).fold max (Ideal.ofBits .f32 0xFF800000#32)
    (fun k : Fin 2048 => src (reduces_S1024x2048_S1024.lift (ix1 r) k)) = _
  rw [Consts.ofBits_neg_inf]
  unfold rowMax
  refine congrArg (fun f : Fin 2048 → EReal => (Finset.univ : Finset (Fin 2048)).fold max ⊥ f)
    (funext fun k => congrArg src (funext fun a => Fin.ext ?_))
  match a with
  | ⟨0, _⟩ => rfl
  | ⟨1, _⟩ => rfl

/-- The row sum. -/
theorem rowsum_apply (src : FVec Ideal S1024x2048 .f32) (r : Fin 1024) :
    multiReduction .add [1] S1024 src 0x00000000#32 reduces_S1024x2048_S1024 (.inl rfl) rfl (ix1 r)
      = ∑ j : Fin 2048, src (ix2 r j) := by
  refine (Ideal.multiReduction_add_single src 0x00000000#32 reduces_S1024x2048_S1024 (.inl rfl) rfl (ix1 r)).trans ?_
  show (∑ k : Fin 2048, src (reduces_S1024x2048_S1024.lift (ix1 r) k)) = _
  refine Finset.sum_congr rfl fun k _ => congrArg src (funext fun a => Fin.ext ?_)
  match a with
  | ⟨0, _⟩ => rfl
  | ⟨1, _⟩ => rfl

/-! ## The payloads at an index -/

/-- Row r's scores from the loaded blocks: query row r, all key rows, bias row r, mask row r (on where the loaded
    word is not zero). -/
def sK (P0 : Vec Ideal S1x1x1024x64 .f32) (P1 : Vec Ideal S1x1x2048x64 .f32) (P2 : Vec Ideal S1x1x1024x2048 .bf16)
    (P3 : Vec Ideal S1x1x1024x2048 .i32) (r : Fin 1024) : Fin 2048 → EReal :=
  scoreK cS fillS (fun d : Fin 64 => P0 (ix4 (0 : Fin 1) (0 : Fin 1) r d))
    (fun (j : Fin 2048) (d : Fin 64) => P1 (ix4 (0 : Fin 1) (0 : Fin 1) j d))
    (fun j : Fin 2048 => P2 (ix4 (0 : Fin 1) (0 : Fin 1) r j))
    (fun j : Fin 2048 => IntOp.cmpi .ne (P3 (ix4 (0 : Fin 1) (0 : Fin 1) r j)) 0#32)

/-- The query block with the scale folded in, as the first product's left operand. -/
def qScaled (P0 : Vec Ideal S1x1x1024x64 .f32) : FVec Ideal S1024x64 .bf16 :=
  truncf .bf16 (mulf (shapeCast S1024x64 P0 shapeCasts_S1x1x1024x64_S1024x64) (broadcast S1024x64 (Scalar.ofBits .f32 0x3E000000#32))) bitsLt_bf16_f32

/-- A block of keys or values as a product's right operand. -/
def kvCast (P1 : Vec Ideal S1x1x2048x64 .f32) : FVec Ideal S2048x64 .bf16 :=
  truncf .bf16 (shapeCast S2048x64 P1 shapeCasts_S1x1x2048x64_S2048x64) bitsLt_bf16_f32

theorem qScaled_apply (P0 : Vec Ideal S1x1x1024x64 .f32) (r : Fin 1024) (d : Fin 64) :
    qScaled P0 (ix2 r d) = P0 (ix4 (0 : Fin 1) (0 : Fin 1) r d) * cS := by
  show shapeCast S1024x64 P0 shapeCasts_S1x1x1024x64_S1024x64 (ix2 r d) * cS = _
  rw [cast42 P0 _ r d]

theorem kvCast_apply (P1 : Vec Ideal S1x1x2048x64 .f32) (j : Fin 2048) (d : Fin 64) :
    kvCast P1 (ix2 j d) = P1 (ix4 (0 : Fin 1) (0 : Fin 1) j d) := by
  show shapeCast S2048x64 P1 shapeCasts_S1x1x2048x64_S2048x64 (ix2 j d) = _
  rw [cast42 P1 _ j d]

/-- The masked, biased score block before the maximum is taken. -/
def scores (P0 : Vec Ideal S1x1x1024x64 .f32) (P1 : Vec Ideal S1x1x2048x64 .f32) (P2 : Vec Ideal S1x1x1024x2048 .bf16)
    (P3 : Vec Ideal S1x1x1024x2048 .i32) : FVec Ideal S1024x2048 .f32 :=
  select (cmpi .ne (shapeCast S1024x2048 P3 shapeCasts_S1x1x1024x2048_S1024x2048) (constantI S1024x2048 32 0#32))
    (addf (matmul dot_S1024x64_S2048x64_S1024x2048_1_1_0_0_n_n none (qScaled P0) (kvCast P1) (constant S1024x2048 .f32 0x00000000#32))
      (extf .f32 (shapeCast S1024x2048 P2 shapeCasts_S1x1x1024x2048_S1024x2048) bitsLt_bf16_f32))
    (broadcast S1024x2048 (Scalar.ofBits .f32 0xFF7FFFFF#32))

/-- The weights' payload is the exponential of the scores less their row maximum. -/
theorem pay2_eq (P0 : Vec Ideal S1x1x1024x64 .f32) (P1 : Vec Ideal S1x1x2048x64 .f32) (P2 : Vec Ideal S1x1x1024x2048 .bf16)
    (P3 : Vec Ideal S1x1x1024x2048 .i32) :
    k0_pay2 P0 P1 P2 P3 = exp (subf (scores P0 P1 P2 P3)
      (broadcastTo S1024x2048 (shapeCast S1024x1 (multiReduction .maximumf [1] S1024 (scores P0 P1 P2 P3) 0xFF800000#32
        reduces_S1024x2048_S1024 (.inl rfl) rfl) shapeCasts_S1024_S1024x1) broadcasts_S1024x1_S1024x2048)) := rfl

theorem scores_apply (P0 : Vec Ideal S1x1x1024x64 .f32) (P1 : Vec Ideal S1x1x2048x64 .f32) (P2 : Vec Ideal S1x1x1024x2048 .bf16)
    (P3 : Vec Ideal S1x1x1024x2048 .i32) (r : Fin 1024) (j : Fin 2048) :
    scores P0 P1 P2 P3 (ix2 r j) = sK P0 P1 P2 P3 r j := by
  have h3 : shapeCast S1024x2048 P3 shapeCasts_S1x1x1024x2048_S1024x2048 (ix2 r j) = P3 (ix4 (0 : Fin 1) (0 : Fin 1) r j) :=
    cast42 P3 _ r j
  have h2 : shapeCast S1024x2048 P2 shapeCasts_S1x1x1024x2048_S1024x2048 (ix2 r j) = P2 (ix4 (0 : Fin 1) (0 : Fin 1) r j) :=
    cast42 P2 _ r j
  have hm : matmul dot_S1024x64_S2048x64_S1024x2048_1_1_0_0_n_n none (qScaled P0) (kvCast P1) (constant S1024x2048 .f32 0x00000000#32) (ix2 r j)
      = ∑ d : Fin 64, (P0 (ix4 (0 : Fin 1) (0 : Fin 1) r d) * cS) * P1 (ix4 (0 : Fin 1) (0 : Fin 1) j d) :=
    (mm1_apply (qScaled P0) (kvCast P1) r j).trans (Finset.sum_congr rfl fun d _ => by
      rw [qScaled_apply, kvCast_apply])
  unfold sK scoreK
  show Scalar.select (IntOp.cmpi .ne (shapeCast S1024x2048 P3 shapeCasts_S1x1x1024x2048_S1024x2048 (ix2 r j)) 0#32)
    (matmul dot_S1024x64_S2048x64_S1024x2048_1_1_0_0_n_n none (qScaled P0) (kvCast P1) (constant S1024x2048 .f32 0x00000000#32) (ix2 r j)
      + shapeCast S1024x2048 P2 shapeCasts_S1x1x1024x2048_S1024x2048 (ix2 r j)) fillS = _
  rw [h3, h2, hm]

/-- A weight: the exponential of a score less its row's maximum. -/
theorem pay2_apply (P0 : Vec Ideal S1x1x1024x64 .f32) (P1 : Vec Ideal S1x1x2048x64 .f32) (P2 : Vec Ideal S1x1x1024x2048 .bf16)
    (P3 : Vec Ideal S1x1x1024x2048 .i32) (r : Fin 1024) (j : Fin 2048) :
    k0_pay2 P0 P1 P2 P3 (ix2 r j) = Ideal.exp (sK P0 P1 P2 P3 r j - rowMax (sK P0 P1 P2 P3 r)) := by
  rw [pay2_eq]
  show Ideal.exp (scores P0 P1 P2 P3 (ix2 r j)
    - broadcastTo S1024x2048 (shapeCast S1024x1 (multiReduction .maximumf [1] S1024 (scores P0 P1 P2 P3) 0xFF800000#32
        reduces_S1024x2048_S1024 (.inl rfl) rfl) shapeCasts_S1024_S1024x1) broadcasts_S1024x1_S1024x2048 (ix2 r j)) = _
  rw [col_bcast (by decide) _ _ _ (by decide) r j, rowmax_apply, scores_apply]
  refine congrArg (fun m => Ideal.exp (sK P0 P1 P2 P3 r j - rowMax m)) (funext fun j' => scores_apply P0 P1 P2 P3 r j')

/-- ENTRY (r, d) OF THE STORED BLOCK is the attention row: normalise last, over scores with the scale folded into
    the query. -/
theorem E5_apply (P0 : Vec Ideal S1x1x1024x64 .f32) (P1 : Vec Ideal S1x1x2048x64 .f32) (P2 : Vec Ideal S1x1x1024x2048 .bf16)
    (P3 : Vec Ideal S1x1x1024x2048 .i32) (P4 : Vec Ideal S1x1x2048x64 .f32) (r : Fin 1024) (d : Fin 64) :
    Value.E5 P0 P1 P2 P3 P4 (ix4 (0 : Fin 1) (0 : Fin 1) r d)
      = outK (sK P0 P1 P2 P3 r) (fun j : Fin 2048 => P4 (ix4 (0 : Fin 1) (0 : Fin 1) j d)) := by
  have e0 : Value.ix5_0 (ix4 (0 : Fin 1) (0 : Fin 1) r d) = ix2 r d :=
    funext fun a => Fin.ext (by match a with | ⟨0, _⟩ => rfl | ⟨1, _⟩ => rfl)
  have e1 : Value.ix5_1 (ix4 (0 : Fin 1) (0 : Fin 1) r d) = ix1 r :=
    funext fun a => Fin.ext (by match a with | ⟨0, _⟩ => rfl)
  have hnum : k0_pay4 P0 P1 P2 P3 P4 (ix2 r d)
      = ∑ j : Fin 2048, Ideal.exp (sK P0 P1 P2 P3 r j - rowMax (sK P0 P1 P2 P3 r)) * P4 (ix4 (0 : Fin 1) (0 : Fin 1) j d) := by
    show matmul dot_S1024x2048_S2048x64_S1024x64_1_0_0_1_n_n none (truncf .bf16 (k0_pay2 P0 P1 P2 P3) bitsLt_bf16_f32)
      (kvCast P4) (constant S1024x64 .f32 0x00000000#32) (ix2 r d) = _
    refine (mm2_apply (truncf .bf16 (k0_pay2 P0 P1 P2 P3) bitsLt_bf16_f32) (kvCast P4) r d).trans (Finset.sum_congr rfl fun j _ => ?_)
    show k0_pay2 P0 P1 P2 P3 (ix2 r j) * kvCast P4 (ix2 j d) = _
    rw [pay2_apply, kvCast_apply]
  have hden : multiReduction .add [1] S1024 (k0_pay2 P0 P1 P2 P3) 0x00000000#32 reduces_S1024x2048_S1024 (.inl rfl) rfl (ix1 r)
      = ∑ j : Fin 2048, Ideal.exp (sK P0 P1 P2 P3 r j - rowMax (sK P0 P1 P2 P3 r)) :=
    (rowsum_apply _ r).trans (Finset.sum_congr rfl fun j _ => pay2_apply P0 P1 P2 P3 r j)
  unfold outK
  show Ideal.div (k0_pay4 P0 P1 P2 P3 P4 (Value.ix5_0 (ix4 (0 : Fin 1) (0 : Fin 1) r d)))
    (multiReduction .add [1] S1024 (k0_pay2 P0 P1 P2 P3) 0x00000000#32 reduces_S1024x2048_S1024 (.inl rfl) rfl
      (Value.ix5_1 (ix4 (0 : Fin 1) (0 : Fin 1) r d))) = _
  rw [e0, e1, hnum, hden]

end Cert.KernelIdeal.Row

end
-- ==== Proof.Spec.lean ====
/-
  The result as ONE function of the five argument arrays, in the two arrangements.

  Output entry (b, h, i, d) is a row of masked softmax attention (`SoftmaxRow`): the query is row i of head h of
  batch b, the keys and values all 2048 rows of that head and batch, the bias row i of head h (shared by the
  batches), the mask row i of batch b (shared by the heads). `GK` folds the scale into the query and normalises
  last; `GR` scales the product and normalises first. When the four float arrays hold real numbers the two are
  equal, entry by entry, by the row law.
-/
import proofs.«143891_j11519102288114_2_alg».proof.Proof.LibSoftmaxRow
import proofs.«143891_j11519102288114_2_alg».proof.Proof.Consts
import Idealize.ShloMosaic.Lib.ValueIdx

noncomputable section

namespace Cert.Spec

open Idealize.ShloMosaic Idealize.ShloMosaic.ValueIdx Cert.SoftmaxRow
open Cert.Consts (cS fillS)

abbrev QKV : Shape := ⟨4, ![4, 16, 2048, 64]⟩
abbrev Msk : Shape := ⟨4, ![4, 1, 2048, 2048]⟩
abbrev Bias : Shape := ⟨4, ![1, 16, 2048, 2048]⟩

/-- Query row i of head h of batch b. -/
def qRow (x0 : QKV.Idx → EReal) (b : Fin 4) (h : Fin 16) (i : Fin 2048) : Fin 64 → EReal := fun d => x0 (ix4 b h i d)
/-- The key rows of head h of batch b. -/
def kRows (x1 : QKV.Idx → EReal) (b : Fin 4) (h : Fin 16) : Fin 2048 → Fin 64 → EReal := fun j d => x1 (ix4 b h j d)
/-- Column d of the values of head h of batch b. -/
def vCol (x2 : QKV.Idx → EReal) (b : Fin 4) (h : Fin 16) (d : Fin 64) : Fin 2048 → EReal := fun j => x2 (ix4 b h j d)
/-- Bias row i of head h. -/
def bRow (x4 : Bias.Idx → EReal) (h : Fin 16) (i : Fin 2048) : Fin 2048 → EReal := fun j => x4 (ix4 (0 : Fin 1) h i j)
/-- Mask row i of batch b. -/
def mRow (x3 : Msk.Idx → BitVec 1) (b : Fin 4) (i : Fin 2048) : Fin 2048 → BitVec 1 := fun j => x3 (ix4 b (0 : Fin 1) i j)

/-- Row (b, h, i)'s scores with the scale folded into the query. -/
def rowK (x0 x1 : QKV.Idx → EReal) (x3 : Msk.Idx → BitVec 1) (x4 : Bias.Idx → EReal) (b : Fin 4) (h : Fin 16) (i : Fin 2048) :
    Fin 2048 → EReal :=
  scoreK cS fillS (qRow x0 b h i) (kRows x1 b h) (bRow x4 h i) (mRow x3 b i)

/-- Row (b, h, i)'s scores with the scale applied to the product. -/
def rowR (x0 x1 : QKV.Idx → EReal) (x3 : Msk.Idx → BitVec 1) (x4 : Bias.Idx → EReal) (b : Fin 4) (h : Fin 16) (i : Fin 2048) :
    Fin 2048 → EReal :=
  scoreR cS fillS (qRow x0 b h i) (kRows x1 b h) (bRow x4 h i) (mRow x3 b i)

def attnKAt (x0 x1 x2 : QKV.Idx → EReal) (x3 : Msk.Idx → BitVec 1) (x4 : Bias.Idx → EReal)
    (b : Fin 4) (h : Fin 16) (i : Fin 2048) (d : Fin 64) : EReal :=
  outK (rowK x0 x1 x3 x4 b h i) (vCol x2 b h d)

def attnRAt (x0 x1 x2 : QKV.Idx → EReal) (x3 : Msk.Idx → BitVec 1) (x4 : Bias.Idx → EReal)
    (b : Fin 4) (h : Fin 16) (i : Fin 2048) (d : Fin 64) : EReal :=
  outR (rowR x0 x1 x3 x4 b h i) (vCol x2 b h d)

/-- The whole result, scale folded into the query and normalised last. -/
def GK (x0 x1 x2 : QKV.Idx → EReal) (x3 : Msk.Idx → BitVec 1) (x4 : Bias.Idx → EReal) : QKV.Idx → EReal :=
  fun i => attnKAt x0 x1 x2 x3 x4 (i 0) (i 1) (i 2) (i 3)

/-- The whole result, product scaled and normalised first. -/
def GR (x0 x1 x2 : QKV.Idx → EReal) (x3 : Msk.Idx → BitVec 1) (x4 : Bias.Idx → EReal) : QKV.Idx → EReal :=
  fun i => attnRAt x0 x1 x2 x3 x4 (i 0) (i 1) (i 2) (i 3)

/-- On real arrays the two arrangements are one function: the row law at every entry. -/
theorem GR_eq_GK (x0 x1 x2 : QKV.Idx → EReal) (x3 : Msk.Idx → BitVec 1) (x4 : Bias.Idx → EReal)
    (h0 : ∀ i, ∃ r : ℝ, x0 i = r) (h1 : ∀ i, ∃ r : ℝ, x1 i = r) (h2 : ∀ i, ∃ r : ℝ, x2 i = r) (h4 : ∀ i, ∃ r : ℝ, x4 i = r) :
    GR x0 x1 x2 x3 x4 = GK x0 x1 x2 x3 x4 := by
  funext i
  exact attnR_eq_attnK (by decide) cS fillS _ _ _ _ _ Consts.ofBits_scale_real Consts.ofBits_fill_real
    (fun d => h0 _) (fun j d => h1 _) (fun j => h4 _) (fun j => h2 _)

end Cert.Spec

end
-- ==== Proof.KernelArray.lean ====
/-
  From the blocks to the whole array: the kernel's result is `Spec.GK` of its arguments.

  The grid has 2 × 16 × 4 points (query half, head, batch). At a point the output window's block is rows
  [1024·q, 1024·q + 1024) of head h of batch b; the query window moves with it, the key and value windows hold all of
  that head and batch, the bias window rows [1024·q, …) of head h of the one bias batch, the mask window the same rows
  of batch b's one mask head. The bias reaches the region narrowed to bf16 (no change at the extended reals) and the
  mask widened from one bit to a word, which the body tests against zero: that test gives the bit back.
  So entry (0, 0, r, d) of what a point writes is entry (b, h, 1024·q + r, d) of `GK`; the 128 blocks tile the
  array, hence the array ends holding `GK`.
-/
import proofs.«143891_j11519102288114_2_alg».proof.Proof.KernelRow
import proofs.«143891_j11519102288114_2_alg».proof.Proof.Spec
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo Cert.SoftmaxRow Cert.Spec
open Idealize.ShloMosaic.Pipeline (Dat)
open Cert.Consts (cS fillS)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The index maps, decided over the 128 grid points -/

/-- The output window's block index: (batch, head, query half, 0). -/
theorem idx5 : ∀ t : Fin cfg0.N, win0_5.index t (0 : Fin 4) < 4 ∧ win0_5.index t (1 : Fin 4) < 16
    ∧ win0_5.index t (2 : Fin 4) < 2 ∧ win0_5.index t (3 : Fin 4) = 0 :=
  (by decide +kernel : ∀ t : Fin grid0.N, _)

/-- The query window moves with the output window. -/
theorem idx0 : ∀ t : Fin cfg0.N, win0_0.index t (0 : Fin 4) = win0_5.index t (0 : Fin 4)
    ∧ win0_0.index t (1 : Fin 4) = win0_5.index t (1 : Fin 4) ∧ win0_0.index t (2 : Fin 4) = win0_5.index t (2 : Fin 4)
    ∧ win0_0.index t (3 : Fin 4) = 0 :=
  (by decide +kernel : ∀ t : Fin grid0.N, _)

/-- The key window: the output's batch and head, everything of them. -/
theorem idx1 : ∀ t : Fin cfg0.N, win0_1.index t (0 : Fin 4) = win0_5.index t (0 : Fin 4)
    ∧ win0_1.index t (1 : Fin 4) = win0_5.index t (1 : Fin 4) ∧ win0_1.index t (2 : Fin 4) = 0
    ∧ win0_1.index t (3 : Fin 4) = 0 :=
  (by decide +kernel : ∀ t : Fin grid0.N, _)

/-- The value window likewise. -/
theorem idx2 : ∀ t : Fin cfg0.N, win0_2.index t (0 : Fin 4) = win0_5.index t (0 : Fin 4)
    ∧ win0_2.index t (1 : Fin 4) = win0_5.index t (1 : Fin 4) ∧ win0_2.index t (2 : Fin 4) = 0
    ∧ win0_2.index t (3 : Fin 4) = 0 :=
  (by decide +kernel : ∀ t : Fin grid0.N, _)

/-- The bias window: the output's head and query half of the one bias batch. -/
theorem idx3 : ∀ t : Fin cfg0.N, win0_3.index t (0 : Fin 4) = 0
    ∧ win0_3.index t (1 : Fin 4) = win0_5.index t (1 : Fin 4) ∧ win0_3.index t (2 : Fin 4) = win0_5.index t (2 : Fin 4)
    ∧ win0_3.index t (3 : Fin 4) = 0 :=
  (by decide +kernel : ∀ t : Fin grid0.N, _)

/-- The mask window: the output's batch and query half of the one mask head. -/
theorem idx4 : ∀ t : Fin cfg0.N, win0_4.index t (0 : Fin 4) = win0_5.index t (0 : Fin 4)
    ∧ win0_4.index t (1 : Fin 4) = 0 ∧ win0_4.index t (2 : Fin 4) = win0_5.index t (2 : Fin 4)
    ∧ win0_4.index t (3 : Fin 4) = 0 :=
  (by decide +kernel : ∀ t : Fin grid0.N, _)

/-- Every (batch, head, query half) is some point's block. -/
theorem idx_onto : ∀ (q0 : Fin 4) (q1 : Fin 16) (q2 : Fin 2), ∃ t : Fin cfg0.N, win0_5.index t = ![q0.val, q1.val, q2.val, 0] :=
  (by decide +kernel : ∀ (q0 : Fin 4) (q1 : Fin 16) (q2 : Fin 2), ∃ t : Fin grid0.N, win0_5.index t = ![q0.val, q1.val, q2.val, 0])

/-! ## The two arrays the host prepares -/

/-- The bias as the region finds it: narrowed to bf16, the same extended reals. -/
theorem V_bias (c : Dev nD) :
    (V m c main_v0 : S1x16x2048x2048.Idx → EReal) = m ((c : Thread nD τ).loc main_arg4) := by
  dsimp only [Gen.V, Gen.hostOps0]; after_results; rfl

/-- The mask as the region finds it: each bit widened to a word. -/
theorem V_mask (c : Dev nD) :
    (V m c main_v1 : S4x1x2048x2048.Idx → BitVec 32) = fun i => (m ((c : Thread nD τ).loc main_arg3) i).setWidth 32 := by
  dsimp only [Gen.V, Gen.hostOps0]; after_results; rfl

/-- Testing the widened bit against zero gives the bit back. -/
theorem ne_zero_setWidth (x : BitVec 1) : IntOp.cmpi .ne (x.setWidth 32) 0#32 = x := by
  rcases BitVec.eq_zero_or_eq_one x with h | h <;> subst h <;> decide

/-! ## The blocks the body loads, read off the arrays -/

section Reads
variable (c : Dev nD) (t : Fin cfg0.N) (B : Fin 4) (H : Fin 16) (I : Fin 2048) (r : Fin 1024)
  (hB : win0_5.index t (0 : Fin 4) = B.val) (hH : win0_5.index t (1 : Fin 4) = H.val)
  (hI : win0_5.index t (2 : Fin 4) * 1024 + r.val = I.val)

include hB hH hI in
theorem read_q (d : Fin 64) :
    iblk m c 0 t (ix4 (0 : Fin 1) (0 : Fin 1) r d) = m ((c : Thread nD τ).loc main_arg0) (ix4 B H I d) := by
  obtain ⟨e0, e1, e2, e3⟩ := idx0 t
  refine Eq.trans ?_ (congrFun (V_main_arg0 m c) (ix4 B H I d))
  show V m c main_arg0 (((cfg0.win 0).blk t).view.emb (ix4 (0 : Fin 1) (0 : Fin 1) r d)) = V m c main_arg0 (ix4 B H I d)
  refine congrArg (V m c main_arg0) (funext fun a => Fin.ext ?_)
  match a with
  | ⟨0, _⟩ => show win0_0.index t (0 : Fin 4) * 1 + 1 * 0 = B.val; omega
  | ⟨1, _⟩ => show win0_0.index t (1 : Fin 4) * 1 + 1 * 0 = H.val; omega
  | ⟨2, _⟩ => show win0_0.index t (2 : Fin 4) * 1024 + 1 * r.val = I.val; omega
  | ⟨3, _⟩ => show win0_0.index t (3 : Fin 4) * 64 + 1 * d.val = d.val; omega

include hB hH in
theorem read_k (j : Fin 2048) (d : Fin 64) :
    iblk m c 1 t (ix4 (0 : Fin 1) (0 : Fin 1) j d) = m ((c : Thread nD τ).loc main_arg1) (ix4 B H j d) := by
  obtain ⟨e0, e1, e2, e3⟩ := idx1 t
  refine Eq.trans ?_ (congrFun (V_main_arg1 m c) (ix4 B H j d))
  show V m c main_arg1 (((cfg0.win 1).blk t).view.emb (ix4 (0 : Fin 1) (0 : Fin 1) j d)) = V m c main_arg1 (ix4 B H j d)
  refine congrArg (V m c main_arg1) (funext fun a => Fin.ext ?_)
  match a with
  | ⟨0, _⟩ => show win0_1.index t (0 : Fin 4) * 1 + 1 * 0 = B.val; omega
  | ⟨1, _⟩ => show win0_1.index t (1 : Fin 4) * 1 + 1 * 0 = H.val; omega
  | ⟨2, _⟩ => show win0_1.index t (2 : Fin 4) * 2048 + 1 * j.val = j.val; omega
  | ⟨3, _⟩ => show win0_1.index t (3 : Fin 4) * 64 + 1 * d.val = d.val; omega

include hB hH in
theorem read_v (j : Fin 2048) (d : Fin 64) :
    iblk m c 2 t (ix4 (0 : Fin 1) (0 : Fin 1) j d) = m ((c : Thread nD τ).loc main_arg2) (ix4 B H j d) := by
  obtain ⟨e0, e1, e2, e3⟩ := idx2 t
  refine Eq.trans ?_ (congrFun (V_main_arg2 m c) (ix4 B H j d))
  show V m c main_arg2 (((cfg0.win 2).blk t).view.emb (ix4 (0 : Fin 1) (0 : Fin 1) j d)) = V m c main_arg2 (ix4 B H j d)
  refine congrArg (V m c main_arg2) (funext fun a => Fin.ext ?_)
  match a with
  | ⟨0, _⟩ => show win0_2.index t (0 : Fin 4) * 1 + 1 * 0 = B.val; omega
  | ⟨1, _⟩ => show win0_2.index t (1 : Fin 4) * 1 + 1 * 0 = H.val; omega
  | ⟨2, _⟩ => show win0_2.index t (2 : Fin 4) * 2048 + 1 * j.val = j.val; omega
  | ⟨3, _⟩ => show win0_2.index t (3 : Fin 4) * 64 + 1 * d.val = d.val; omega

include hH hI in
theorem read_bias (j : Fin 2048) :
    iblk m c 3 t (ix4 (0 : Fin 1) (0 : Fin 1) r j) = m ((c : Thread nD τ).loc main_arg4) (ix4 (0 : Fin 1) H I j) := by
  obtain ⟨e0, e1, e2, e3⟩ := idx3 t
  refine Eq.trans ?_ (congrFun (V_bias m c) (ix4 (0 : Fin 1) H I j))
  show V m c main_v0 (((cfg0.win 3).blk t).view.emb (ix4 (0 : Fin 1) (0 : Fin 1) r j)) = V m c main_v0 (ix4 (0 : Fin 1) H I j)
  refine congrArg (V m c main_v0) (funext fun a => Fin.ext ?_)
  match a with
  | ⟨0, _⟩ => show win0_3.index t (0 : Fin 4) * 1 + 1 * 0 = 0; omega
  | ⟨1, _⟩ => show win0_3.index t (1 : Fin 4) * 1 + 1 * 0 = H.val; omega
  | ⟨2, _⟩ => show win0_3.index t (2 : Fin 4) * 1024 + 1 * r.val = I.val; omega
  | ⟨3, _⟩ => show win0_3.index t (3 : Fin 4) * 2048 + 1 * j.val = j.val; omega

include hB hI in
theorem read_mask (j : Fin 2048) :
    iblk m c 4 t (ix4 (0 : Fin 1) (0 : Fin 1) r j)
      = (m ((c : Thread nD τ).loc main_arg3) (ix4 B (0 : Fin 1) I j)).setWidth 32 := by
  obtain ⟨e0, e1, e2, e3⟩ := idx4 t
  refine Eq.trans ?_ (congrFun (V_mask m c) (ix4 B (0 : Fin 1) I j))
  show V m c main_v1 (((cfg0.win 4).blk t).view.emb (ix4 (0 : Fin 1) (0 : Fin 1) r j)) = V m c main_v1 (ix4 B (0 : Fin 1) I j)
  refine congrArg (V m c main_v1) (funext fun a => Fin.ext ?_)
  match a with
  | ⟨0, _⟩ => show win0_4.index t (0 : Fin 4) * 1 + 1 * 0 = B.val; omega
  | ⟨1, _⟩ => show win0_4.index t (1 : Fin 4) * 1 + 1 * 0 = 0; omega
  | ⟨2, _⟩ => show win0_4.index t (2 : Fin 4) * 1024 + 1 * r.val = I.val; omega
  | ⟨3, _⟩ => show win0_4.index t (3 : Fin 4) * 2048 + 1 * j.val = j.val; omega

end Reads

/-! ## What a point writes back -/

/-- WHAT POINT `t` WRITES BACK is block `t` of `GK` of the argument arrays. -/
theorem flushed_eq (c : Dev nD) (t : Fin cfg0.N) :
    (dats m 0 c).flushed 5 t = ((cfg0.win 5).blk t).view.read (Elt Ideal) (GK (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  unfold out0_5
  simp only [View.ld_unit_zero (S := S1x1x1024x64) hz, View.ld_unit_zero (S := S1x1x2048x64) hz,
    View.ld_unit_zero (S := S1x1x1024x2048) hz]
  funext y
  obtain ⟨y0, y1, r, d, rfl⟩ : ∃ (y0 y1 : Fin 1) (r : Fin 1024) (d : Fin 64), y = ix4 y0 y1 r d :=
    ⟨y 0, y 1, y 2, y 3, eq_ix4 y⟩
  obtain rfl : y0 = 0 := Subsingleton.elim _ _
  obtain rfl : y1 = 0 := Subsingleton.elim _ _
  obtain ⟨hB, hH, hQ, h3⟩ := idx5 t
  have hIlt : win0_5.index t (2 : Fin 4) * 1024 + r.val < 2048 := by have := r.isLt; omega
  have hemb : ((cfg0.win 5).blk t).view.emb (ix4 (0 : Fin 1) (0 : Fin 1) r d)
      = ix4 (⟨win0_5.index t (0 : Fin 4), hB⟩ : Fin 4) (⟨win0_5.index t (1 : Fin 4), hH⟩ : Fin 16)
          (⟨win0_5.index t (2 : Fin 4) * 1024 + r.val, hIlt⟩ : Fin 2048) d :=
    funext fun a => Fin.ext (by
      match a with
      | ⟨0, _⟩ => show win0_5.index t (0 : Fin 4) * 1 + 1 * 0 = win0_5.index t (0 : Fin 4); omega
      | ⟨1, _⟩ => show win0_5.index t (1 : Fin 4) * 1 + 1 * 0 = win0_5.index t (1 : Fin 4); omega
      | ⟨2, _⟩ => show win0_5.index t (2 : Fin 4) * 1024 + 1 * r.val = win0_5.index t (2 : Fin 4) * 1024 + r.val; omega
      | ⟨3, _⟩ => show win0_5.index t (3 : Fin 4) * 64 + 1 * d.val = d.val; omega)
  show View.canon ([⟨r0_0, k0_pay1 (k0_pay3 (iblk m c 0 t) (iblk m c 1 t) (iblk m c 3 t) (iblk m c 4 t))
      (k0_pay4 (iblk m c 0 t) (iblk m c 1 t) (iblk m c 3 t) (iblk m c 4 t) (iblk m c 2 t))⟩] :
        List (View.Piece (Elt Ideal) S1x1x1024x64 .f32)) (ix4 (0 : Fin 1) (0 : Fin 1) r d)
    = (GK (m ((c : Thread nD τ).loc main_arg0)) (m ((c : Thread nD τ).loc main_arg1)) (m ((c : Thread nD τ).loc main_arg2)) (m ((c : Thread nD τ).loc main_arg3)) (m ((c : Thread nD τ).loc main_arg4))) (((cfg0.win 5).blk t).view.emb (ix4 (0 : Fin 1) (0 : Fin 1) r d))
  rw [Value.canon5_eq, Row.E5_apply, hemb]
  generalize hBv : (⟨win0_5.index t (0 : Fin 4), hB⟩ : Fin 4) = B
  generalize hHv : (⟨win0_5.index t (1 : Fin 4), hH⟩ : Fin 16) = H
  generalize hIv : (⟨win0_5.index t (2 : Fin 4) * 1024 + r.val, hIlt⟩ : Fin 2048) = I
  have hB' : win0_5.index t (0 : Fin 4) = B.val := by rw [← hBv]
  have hH' : win0_5.index t (1 : Fin 4) = H.val := by rw [← hHv]
  have hI' : win0_5.index t (2 : Fin 4) * 1024 + r.val = I.val := by rw [← hIv]
  have hq : (fun d' : Fin 64 => iblk m c 0 t (ix4 (0 : Fin 1) (0 : Fin 1) r d')) = qRow (m ((c : Thread nD τ).loc main_arg0)) B H I :=
    funext fun d' => read_q m c t B H I r hB' hH' hI' d'
  have hk : (fun (j : Fin 2048) (d' : Fin 64) => iblk m c 1 t (ix4 (0 : Fin 1) (0 : Fin 1) j d')) = kRows (m ((c : Thread nD τ).loc main_arg1)) B H :=
    funext fun j => funext fun d' => read_k m c t B H hB' hH' j d'
  have hv : (fun j : Fin 2048 => iblk m c 2 t (ix4 (0 : Fin 1) (0 : Fin 1) j d)) = vCol (m ((c : Thread nD τ).loc main_arg2)) B H d :=
    funext fun j => read_v m c t B H hB' hH' j d
  have hb : (fun j : Fin 2048 => iblk m c 3 t (ix4 (0 : Fin 1) (0 : Fin 1) r j)) = bRow (m ((c : Thread nD τ).loc main_arg4)) H I :=
    funext fun j => read_bias m c t H I r hH' hI' j
  have hm : (fun j : Fin 2048 => IntOp.cmpi .ne (iblk m c 4 t (ix4 (0 : Fin 1) (0 : Fin 1) r j)) 0#32) = mRow (m ((c : Thread nD τ).loc main_arg3)) B I :=
    funext fun j => by rw [read_mask m c t B I r hB' hI' j]; exact ne_zero_setWidth _
  show outK (scoreK cS fillS (fun d' : Fin 64 => iblk m c 0 t (ix4 (0 : Fin 1) (0 : Fin 1) r d'))
      (fun (j : Fin 2048) (d' : Fin 64) => iblk m c 1 t (ix4 (0 : Fin 1) (0 : Fin 1) j d'))
      (fun j : Fin 2048 => iblk m c 3 t (ix4 (0 : Fin 1) (0 : Fin 1) r j))
      (fun j : Fin 2048 => IntOp.cmpi .ne (iblk m c 4 t (ix4 (0 : Fin 1) (0 : Fin 1) r j)) 0#32))
      (fun j : Fin 2048 => iblk m c 2 t (ix4 (0 : Fin 1) (0 : Fin 1) j d))
    = outK (scoreK cS fillS (qRow (m ((c : Thread nD τ).loc main_arg0)) B H I) (kRows (m ((c : Thread nD τ).loc main_arg1)) B H) (bRow (m ((c : Thread nD τ).loc main_arg4)) H I) (mRow (m ((c : Thread nD τ).loc main_arg3)) B I))
        (vCol (m ((c : Thread nD τ).loc main_arg2)) B H d)
  rw [hq, hk, hv, hb, hm]

/-! ## The cover, the array, the run -/

/-- An index of the array is in point `t`'s block iff each coordinate is in the block's range on its axis. -/
theorem mem_blk (t : Fin cfg0.N) (i : S4x16x2048x64.Idx) :
    i ∈ ((cfg0.win 5).blk t).view.set ↔ ∀ a : Fin 4, win0_5.index t a * S1x1x1024x64.size a ≤ (i a).val
      ∧ (i a).val < win0_5.index t a * S1x1x1024x64.size a + S1x1x1024x64.size a := by
  show i ∈ ((View.whole main_v2).slice (win0_5.rect t)).set ↔ _
  rw [View.set_slice_whole, Rect.mem_set_unit]
  exact Iff.rfl

/-- Every index of the result is in some point's block: the point of its batch, head and query half. -/
theorem cover (i : S4x16x2048x64.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 64 ≤ (i 3).val ∧ (i 3).val < win0_5.index t (3 : Fin 4) * 64 + 64; omega

/-- THE ARRAY after the run is `GK` of the argument arrays. -/
theorem final (c : Dev nD) : (dats m 0 c).arrAt 5 cfg0.N = (GK (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 5 (GK (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-- The kernel's run: the result array at `GK` of the arguments, the arguments unchanged. -/
theorem run : θ_run defs (onTc (τ := τ) (main (F := Ideal))) ⟨m, fun _ => 0, ρ⟩ fun r => ∀ c : Dev nD,
      r.2.mem ((c : Thread nD τ).loc main_v2) = (GK (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Arr

end
-- ==== Proof.RefIsSpec.lean ====
/-
  The reference computes `Spec.GR`.

  Its program is read one operation at a time, at an index: the first product is a sum over the 64 features, the
  scale multiplies it, the bias (broadcast over the batches) is added, the mask (broadcast over the heads) selects
  it or the fill; the maximum over the keys is a fold of `max`, clamped below by the bottom element; the weights are
  the exponentials, divided by their sum started from zero; the second product sums the normalised weights against
  a column of the values.
-/
import proofs.«143891_j11519102288114_2_alg».proof.Proof.Gen.ReferenceIdeal.Read
import proofs.«143891_j11519102288114_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SoftmaxRow Cert.Spec
open Cert.Consts (cS fillS)

variable (x0 x1 x2 : (⟨S4x16x2048x64, .f32⟩ : BufTy).Contents (Elt Ideal))
  (x3 : (⟨S4x1x2048x2048, .i1⟩ : BufTy).Contents (Elt Ideal)) (x4 : (⟨S1x16x2048x2048, .f32⟩ : BufTy).Contents (Elt Ideal))

/-- A masked score at (b, h, i, j). -/
theorem v5_apply (b : Fin 4) (h : Fin 16) (i j : Fin 2048) :
    val_main_v5 (F := Ideal) x0 x1 x3 x4 (ix4 b h i j) = rowR x0 x1 x3 x4 b h i j := by
  rw [val_main_v5_apply, val_main_call0_v0_apply, val_main_call0_v1_apply, val_main_cst_0_apply, val_main_v4_apply,
    val_main_v2_apply, val_main_v3_apply, val_main_v0_apply, val_main_v1_apply, val_main_cst_apply]
  have e3 : idx_main_call0_v0 (ix4 b h i j) = ix4 b (0 : Fin 1) i j :=
    funext fun a => Fin.ext (by match a with | ⟨0, _⟩ => rfl | ⟨1, _⟩ => rfl | ⟨2, _⟩ => rfl | ⟨3, _⟩ => rfl)
  have e4 : idx_main_v3 (ix4 b h i j) = ix4 (0 : Fin 1) h i j :=
    funext fun a => Fin.ext (by match a with | ⟨0, _⟩ => rfl | ⟨1, _⟩ => rfl | ⟨2, _⟩ => rfl | ⟨3, _⟩ => rfl)
  have el : ∀ k : Fin 64, lidx_main_v0 (ix4 b h i j) k = ix4 b h i k := fun k =>
    funext fun a => Fin.ext (by match a with | ⟨0, _⟩ => rfl | ⟨1, _⟩ => rfl | ⟨2, _⟩ => rfl | ⟨3, _⟩ => rfl)
  have er : ∀ k : Fin 64, ridx_main_v0 (ix4 b h i j) k = ix4 b h j k := fun k =>
    funext fun a => Fin.ext (by match a with | ⟨0, _⟩ => rfl | ⟨1, _⟩ => rfl | ⟨2, _⟩ => rfl | ⟨3, _⟩ => rfl)
  simp only [e3, e4, el, er]
  rfl

theorem hred : S4x16x2048x2048.Reduces [3] S4x16x2048 := by decide

/-- A maximum over the last axis, read at (b, h, i): the fold of `max` from the bottom element over that row. -/
theorem hostmax_apply (y : S4x16x2048x2048.Idx → EReal) (b : Fin 4) (h : Fin 16) (i : Fin 2048) :
    Host.reduce (FloatOps.maximumf (F := Ideal) (φ := .f32)) y (val_main_cst_1 (F := Ideal)) reducesTo_S4x16x2048x2048_S4x16x2048_d3 h_S_ (ix3 b h i)
      = rowMax (fun k : Fin 2048 => y (ix4 b h i k)) := by
  have key := Host.reduce_eq_fold_single (α := EReal) (s := S4x16x2048x2048) (t := S4x16x2048) (a := (3 : Fin 4)) (u := S_)
    (FloatOps.maximumf (F := Ideal) (φ := .f32)) y (val_main_cst_1 (F := Ideal)) reducesTo_S4x16x2048x2048_S4x16x2048_d3 hred h_S_ (ix3 b h i)
  refine key.trans ?_
  show (Finset.univ : Finset (Fin 2048)).fold max (Ideal.ofBits .f32 0xFF800000#32)
    (fun k : Fin 2048 => y (hred.lift (ix3 b h i) k)) = _
  rw [Consts.ofBits_neg_inf]
  unfold rowMax
  refine congrArg (fun f : Fin 2048 → EReal => (Finset.univ : Finset (Fin 2048)).fold max ⊥ f) (funext fun k => ?_)
  exact congrArg y (funext fun a => Fin.ext (by match a with | ⟨0, _⟩ => rfl | ⟨1, _⟩ => rfl | ⟨2, _⟩ => rfl | ⟨3, _⟩ => rfl))

/-- The maximum over the keys at (b, h, i): the fold of `max` from the bottom element over the row's scores. -/
theorem v6_apply (b : Fin 4) (h : Fin 16) (i : Fin 2048) :
    val_main_v6 (F := Ideal) x0 x1 x3 x4 (ix3 b h i) = rowMax (rowR x0 x1 x3 x4 b h i) := by
  unfold val_main_v6
  refine (hostmax_apply (val_main_v5 (F := Ideal) x0 x1 x3 x4) b h i).trans ?_
  exact congrArg rowMax (funext fun k => v5_apply x0 x1 x3 x4 b h i k)

/-- A weight at (b, h, i, j): the exponential of the score less the row's (clamped) maximum. -/
theorem v12_apply (b : Fin 4) (h : Fin 16) (i j : Fin 2048) :
    val_main_v12 (F := Ideal) x0 x1 x3 x4 (ix4 b h i j)
      = Ideal.exp (rowR x0 x1 x3 x4 b h i j - max ⊥ (rowMax (rowR x0 x1 x3 x4 b h i))) := by
  rw [val_main_v12_apply, val_main_v11_apply, val_main_v10_apply, val_main_v9_apply, val_main_v8_apply, val_main_v7_apply,
    val_main_cst_2_apply]
  have e : idx_main_v9 (idx_main_v10 (ix4 b h i j)) = ix3 b h i :=
    funext fun a => Fin.ext (by match a with | ⟨0, _⟩ => rfl | ⟨1, _⟩ => rfl | ⟨2, _⟩ => rfl)
  rw [e, v6_apply, v5_apply]
  show Ideal.exp (rowR x0 x1 x3 x4 b h i j - max (Ideal.ofBits .f32 0xFF800000#32) (rowMax (rowR x0 x1 x3 x4 b h i))) = _
  rw [Consts.ofBits_neg_inf]

/-- The normaliser at (b, h, i, j): zero plus the sum of the row's weights. -/
theorem v15_apply (b : Fin 4) (h : Fin 16) (i j : Fin 2048) :
    val_main_v15 (F := Ideal) x0 x1 x3 x4 (ix4 b h i j)
      = 0 + ∑ j' : Fin 2048, Ideal.exp (rowR x0 x1 x3 x4 b h i j' - max ⊥ (rowMax (rowR x0 x1 x3 x4 b h i))) := by
  rw [val_main_v15_apply, val_main_v14_apply, val_main_v13_apply, val_main_cst_3_apply]
  have e : idx_main_v14 (idx_main_v15 (ix4 b h i j)) = ix3 b h i :=
    funext fun a => Fin.ext (by match a with | ⟨0, _⟩ => rfl | ⟨1, _⟩ => rfl | ⟨2, _⟩ => rfl)
  rw [e]
  show Ideal.ofBits .f32 0x00000000#32 + _ = _
  rw [Ideal.ofBits_zero_f32]
  refine congrArg (0 + ·) (Finset.sum_congr rfl fun k _ => ?_)
  rw [← v12_apply x0 x1 x3 x4 b h i k]
  exact congrArg _ (funext fun a => Fin.ext (by match a with | ⟨0, _⟩ => rfl | ⟨1, _⟩ => rfl | ⟨2, _⟩ => rfl | ⟨3, _⟩ => rfl))

/-- THE REFERENCE'S RESULT is `GR` of its arguments. -/
theorem ref_eq : val_main_v17 (F := Ideal) x0 x1 x2 x3 x4 = GR x0 x1 x2 x3 x4 := by
  funext idx
  obtain ⟨b, h, i, d, rfl⟩ : ∃ (b : Fin 4) (h : Fin 16) (i : Fin 2048) (d : Fin 64), idx = ix4 b h i d :=
    ⟨idx 0, idx 1, idx 2, idx 3, eq_ix4 idx⟩
  rw [val_main_v17_apply]
  show _ = outR (rowR x0 x1 x3 x4 b h i) (vCol x2 b h d)
  unfold outR
  refine Finset.sum_congr rfl fun k _ => ?_
  have el : lidx_main_v17 (ix4 b h i d) k = ix4 b h i k :=
    funext fun a => Fin.ext (by match a with | ⟨0, _⟩ => rfl | ⟨1, _⟩ => rfl | ⟨2, _⟩ => rfl | ⟨3, _⟩ => rfl)
  have er : ridx_main_v17 (ix4 b h i d) k = ix4 b h k d :=
    funext fun a => Fin.ext (by match a with | ⟨0, _⟩ => rfl | ⟨1, _⟩ => rfl | ⟨2, _⟩ => rfl | ⟨3, _⟩ => rfl)
  rw [el, er, val_main_v16_apply, v12_apply, v15_apply]
  rfl

end Cert.ReferenceIdeal.RefValue

end
-- ==== Proof.Finite.lean ====
/-
  What the precondition says: every entry of the four float arrays is a real number.

  The predicate is the conjunction of four `all`s, one per float array, of "the entry's absolute value is below
  +∞". It holds (is the one-bit word 1) exactly when each conjunct does; an `all` that is 1 has a 1 at every
  entry; and on the extended reals `max x (-x) < ⊤` rules out both infinities, leaving the reals.
-/
import proofs.«143891_j11519102288114_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

variable [Facts]
open Facts

instance : Subsingleton S_.Idx := ⟨fun a b => funext fun d => d.elim0⟩

/-- The pattern of `+inf` is the top extended real. -/
theorem ofBits_pos_inf : Ideal.ofBits .f32 0x7F800000#32 = ⊤ := by
  simp [Ideal.ofBits, Ideal.ieee]

/-- An extended real whose absolute value is below the top element is a real number. -/
theorem real_of_abs_lt_top (x : EReal) (h : Ideal.cmp .olt (max x (-x)) ⊤ = 1#1) : ∃ r : ℝ, x = r := by
  induction x using EReal.rec with
  | bot => exfalso; revert h; simp [Ideal.cmp]
  | top => exfalso; revert h; simp [Ideal.cmp]
  | coe r => exact ⟨r, rfl⟩

/-- One conjunct: an `all` of "absolute value below +∞" that holds makes every entry real. -/
theorem real_of_all {s : Shape} (a : FVec Ideal s .f32) (hb : S_.BroadcastsInDim s (![] : Fin 0 → Fin s.rank))
    (axes : List (Fin s.rank)) (hr : s.ReducesTo axes S_)
    (h : Host.reduce IntOp.andi (cmpf .olt (Host.absf a) (broadcastInDim s ![] hb (constant S_ .f32 0x7F800000#32)))
      (constantI S_ 1 1#1) hr h_S_ ValueIdx.ix0 = 1#1) (i : s.Idx) : ∃ r : ℝ, a i = r := by
  have e : Ideal.cmp .olt (max (a i) (-(a i))) (Ideal.ofBits .f32 0x7F800000#32) = 1#1 :=
    Host.reduce_andi_all _ _ hr h_S_ ValueIdx.ix0 h i
  rw [ofBits_pos_inf] at e
  exact real_of_abs_lt_top (a i) e

/-- THE PRECONDITION, READ: the queries, keys, values and bias hold real numbers. -/
theorem all_real (a0 a1 a2 : FVec Ideal S4x16x2048x64 .f32) (a3 : IVec S4x1x2048x2048 1) (a4 : FVec Ideal S1x16x2048x2048 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a4 i = r) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all a0 _ _ _ h1, real_of_all a1 _ _ _ h2, real_of_all a2 _ _ _ h3, real_of_all a4 _ _ _ h4⟩

end Cert.Pre_finite_inputs.Finite

end
-- ==== Proof.lean ====
/-
  Masked softmax attention with an additive bias, a fused kernel against a plain reference, as extended reals.

  Both programs compute, for batch b, head h, query row i and feature d, a row of attention: scores
  `(q_i · k_j) / 8 + bias_{h,i,j}`, replaced by the most negative finite f32 where the mask is off; weights
  `exp (score_j - max_j score_j)`; the weighted sum of the values' column d, normalised by the sum of the weights.
  The kernel folds the scale `1/8` into the query before the product and divides once, after the second product; the
  reference scales the product and divides every weight before it. On the extended reals these differ at the
  infinities, so the precondition is used: with real queries, keys, values and bias every score is real, the row
  maximum is real, every weight is a positive real, the normaliser is a positive real, and the two arrangements are
  the same real number (`SoftmaxRow.attnR_eq_attnK`).

  The road: the body's payloads are read at an index, giving one stored entry as a row of attention (`KernelRow`);
  the 128 blocks tile the result, so the array ends holding `Spec.GK` of the arguments (`KernelArray`); the
  reference, read one operation at a time, ends at `Spec.GR` of its arguments (`RefIsSpec`); the precondition says
  the four float arrays are real (`Finite`), and on real arrays `GR` is `GK` (`Spec`). The three frames are the
  programs' runs with the results dropped; the idealization rewrote nothing, so `preserves` is trivial.
-/
import proofs.«143891_j11519102288114_2_alg».proof.Defs
import proofs.«143891_j11519102288114_2_alg».proof.Proof.Gen.Kernel
import proofs.«143891_j11519102288114_2_alg».proof.Proof.Gen.Kernel.Frame
import proofs.«143891_j11519102288114_2_alg».proof.Proof.Gen.KernelIdeal
import proofs.«143891_j11519102288114_2_alg».proof.Proof.Gen.KernelIdeal.Frame
import proofs.«143891_j11519102288114_2_alg».proof.Proof.Gen.ReferenceIdeal
import proofs.«143891_j11519102288114_2_alg».proof.Proof.Gen.ReferenceIdeal.Run
import proofs.«143891_j11519102288114_2_alg».proof.Proof.Gen.Pre_finite_inputs
import proofs.«143891_j11519102288114_2_alg».proof.Proof.KernelArray
import proofs.«143891_j11519102288114_2_alg».proof.Proof.RefIsSpec
import proofs.«143891_j11519102288114_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, of which the precondition holds, both runs end with the result at
    `Spec.GK` of the kernel's arguments: the kernel's by its value run, the reference's at `Spec.GR` of its own
    arguments, which are the kernel's, and on real arrays `GR` is `GK`. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  obtain ⟨r0, r1, r2, r4⟩ := Cert.Pre_finite_inputs.Finite.all_real _ _ _ _ _ (hpre c)
  rw [Cert.ReferenceIdeal.Read.val_main_v17_eq, Cert.ReferenceIdeal.RefValue.ref_eq, e0, e1, e2, e3, e4]
  exact Cert.Spec.GR_eq_GK _ _ _ _ _ r0 r1 r2 r4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
